-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S1x1 : Shape := ⟨2, ![1, 1]⟩
abbrev S16384x4 : Shape := ⟨2, ![16384, 4]⟩
abbrev S16384x3 : Shape := ⟨2, ![16384, 3]⟩
abbrev S16384 : Shape := ⟨1, ![16384]⟩
abbrev S16384x1 : Shape := ⟨2, ![16384, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S16384x4, .f32⟩
  | .local _ .vmem, ⟨1, _⟩ => ⟨S16384x4, .f32⟩
  | .local _ .vmem, ⟨2, _⟩ => ⟨S16384x4, .f32⟩
  | .local _ .vmem, ⟨3, _⟩ => ⟨S16384x4, .f32⟩
  | .local _ .vmem, ⟨4, _⟩ => ⟨S1x1, .f32⟩
  | .local _ .vmem, ⟨5, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v20 : BitVec 1 := Scalar.cmpi .eq arg0 c511_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x4_S16384x4_0_0 : ∀ a, (![0, 0] : Fin 2 → Nat) a + S16384x4.size a ≤ S16384x4.size a
  h_S16384x4 : 0 < S16384x4.numel
  slices_S16384x4_o0_1_S16384x3 : S16384x4.Slices ![0, 1] S16384x3
  reduces_S16384x3_S16384 : S16384x3.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S8388608x4.size a
  hwx0_0 : ∀ i : grid0.Coords, EltTy.bits .f32 = 32 ∨ (Rect.block (s := S8388608x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x4.size a ≤ S8388608x4.size a
  hwx0_1 : ∀ i : grid0.Coords, EltTy.bits .f32 = 32 ∨ (Rect.block (s := S8388608x4) S16384x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S4 : Shape := ⟨1, ![4]⟩
abbrev S1x4 : Shape := ⟨2, ![1, 4]⟩
abbrev S8388608x3 : Shape := ⟨2, ![8388608, 3]⟩
abbrev S_ : Shape := ⟨0, ![]⟩
abbrev S8388608 : Shape := ⟨1, ![8388608]⟩

abbrev nBuf : Space → Nat
  | .hbm => 18
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S4, .f32⟩
  | .hbm, ⟨3, _⟩ => ⟨S1x4, .f32⟩
  | .hbm, ⟨4, _⟩ => ⟨S8388608x4, .f32⟩
  | .hbm, ⟨5, _⟩ => ⟨S8388608x4, .f32⟩
  | .hbm, ⟨6, _⟩ => ⟨S8388608x4, .f32⟩
  | .hbm, ⟨7, _⟩ => ⟨S8388608x3, .f32⟩
  | .hbm, ⟨8, _⟩ => ⟨S8388608x3, .f32⟩
  | .hbm, ⟨9, _⟩ => ⟨S_, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S8388608x4_0_1 : S1x4.BroadcastsInDim S8388608x4 (![0, 1] : Fin 2 → Fin S8388608x4.rank)
  slices_S8388608x4_S8388608x3_0_1 : S8388608x4.Slices ![0, 1] S8388608x3
  reducesTo_S8388608x3_S8388608_d1 : S8388608x3.ReducesTo [1] S8388608
  h_S_ : 0 < S_.numel
  bcast_S_S8388608 : S_.BroadcastsInDim S8388608 (![] : Fin 0 → Fin S8388608.rank)
  reducesTo_S8388608_S_d0 : S8388608.ReducesTo [0] S_

variable [Facts₀]

class Facts : Prop extends Facts₀ where

variable [Facts]
-- ==== Proof.KernelPieces.lean ====
/-
  What one grid point leaves behind, for any float values.

  The kernel keeps a running sum in a 1×1 scratch that it carries from point to point. At every point it loads the two
  input blocks x0, x1 and the scratch's contents s, and stores  s + 2 · (the block's sum)  back into the scratch — the
  payload `k0_pay2 x0 x1 s`. At the first point it first resets the scratch to the zero block `k0_pay1`, so there the stored
  value is the payload at s = zero; at the last point it also copies the scratch, after the store, into the output block.
  Each statement below reads the stores the body's run found back as that one value.
-/
import proofs.«148484_j74294344286531_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- A middle point (neither first nor last) leaves in the scratch the payload of the two blocks and of what the scratch
    held: its one store covers the scratch, and its loads read whole buffers. -/
theorem scratch_B (c : Dev nD) (i : grid0.Coords) (a1 : Memref sig .tc .vmem S16384x4 .f32) (h1 : a1.IsWhole)
    (a2 : Memref sig .tc .vmem S16384x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S16384x4 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S16384x4) hz,
    View.ld_unit_zero (S := S1x1) hz]

/-- The last point leaves the same payload in the scratch. -/
theorem scratch_C (c : Dev nD) (i : grid0.Coords) (a1 : Memref sig .tc .vmem S16384x4 .f32) (h1 : a1.IsWhole)
    (a2 : Memref sig .tc .vmem S16384x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x4 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S16384x4) hz,
    View.ld_unit_zero (S := S1x1) hz]

/-- And it copies that value, read back from the scratch after the store, into the output block. -/
theorem out_C (c : Dev nD) (i : grid0.Coords) (a1 : Memref sig .tc .vmem S16384x4 .f32) (h1 : a1.IsWhole)
    (a2 : Memref sig .tc .vmem S16384x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x4 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S16384x4) hz, View.ld_unit_zero (S := S1x1) hz]

/-- The first point resets the scratch to the zero block and then leaves the payload over that zero block. -/
theorem scratch_A (c : Dev nD) (i : grid0.Coords) (a1 : Memref sig .tc .vmem S16384x4 .f32) (h1 : a1.IsWhole)
    (a2 : Memref sig .tc .vmem S16384x4 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S16384x4 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S16384x4) hz, View.ld_unit_zero (S := S1x1) hz]

end Cert.KernelIdeal.KValue

end
-- ==== Proof.KernelAcc.lean ====
/-
  The kernel's result for any float values: the running sum carried through the 512 grid points, written back once.

  After point n the scratch holds `chain n`: the first point's payload over the zero block, then at each later point the payload
  of that point's two input blocks over what the point before left (induction on the point, never an enumeration of the
  grid). The output's 1×1 block is stored only at the last point, where it receives the scratch's value after that point's
  store; the pipeline writes it back there and nowhere else, and that one block is the whole result array. The program
  then reshapes the 1×1 array to a scalar and divides it by a constant.
-/
import proofs.«148484_j74294344286531_2_alg».proof.Proof.KernelPieces
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The running value after point n: the payload of point n's blocks over the value after point n - 1 (over the zero
    block at the first point). -/
def chain (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (chain c n (Nat.lt_of_succ_lt h))

/-- What the scratch holds after point n is the running value. -/
theorem scratch_eq (c : Dev nD) : ∀ (n : ℕ) (h : n < cfg0.N), (outsAt0 m c n h).2 = chain m c n h
  | 0, h => by
    rw [outsAt0_A m c ⟨0, h⟩ rfl (by show ¬(0 : ℕ) % 512 = 511; decide)]
    dsimp only
    exact scratch_A ..
  | n + 1, h => by
    have hN : cfg0.N = 512 := N_0
    have h0 : ¬(⟨n + 1, h⟩ : Fin cfg0.N).val % 512 = 0 := by dsimp only; omega
    by_cases h1 : (⟨n + 1, h⟩ : Fin cfg0.N).val % 512 = 511
    · rw [outsAt0_C m c ⟨n + 1, h⟩ h0 h1]
      dsimp only
      rw [scratch_C]
      show k0_pay2 _ _ (outsAt0 m c n _).2 = k0_pay2 _ _ (chain m c n _)
      rw [scratch_eq c n]
    · rw [outsAt0_B m c ⟨n + 1, h⟩ h0 h1]
      dsimp only
      rw [scratch_B]
      show k0_pay2 _ _ (outsAt0 m c n _).2 = k0_pay2 _ _ (chain m c n _)
      rw [scratch_eq c n]

/-- The last point. -/
def tLast : Fin cfg0.N := ⟨511, by rw [show cfg0.N = 512 from N_0]; decide⟩

/-- The value after the last point, as the contents of the 1×1 result array. -/
abbrev last (c : Dev nD) : Buf (Elt F) ((c : Thread nD τ).loc main_v0) := chain m c 511 tLast.isLt

/-- At a last point (the point after n, when it is one) the output block receives the running value after that point. -/
theorem out_succ (c : Dev nD) (n : ℕ) (h : n + 1 < cfg0.N) (h1 : (n + 1) % 512 = 511) :
    (outsAt0 m c (n + 1) h).1 = chain m c (n + 1) h := by
  have hN : cfg0.N = 512 := N_0
  have h0 : ¬(⟨n + 1, h⟩ : Fin cfg0.N).val % 512 = 0 := by dsimp only; omega
  rw [outsAt0_C m c ⟨n + 1, h⟩ h0 h1]
  dsimp only
  rw [out_C]
  show k0_pay2 _ _ (outsAt0 m c n _).2 = k0_pay2 _ _ (chain m c n _)
  rw [scratch_eq m c n]

/-- At the last point the output block receives the value after the last point. -/
theorem out_last (c : Dev nD) : (outsAt0 m c tLast.val tLast.isLt).1 = last m c :=
  out_succ m c 510 tLast.isLt (by decide)

/-- The one write-back, at the last point, writes that value: block (0, 0) of the 1×1 array, read through zero offsets,
    is the array. -/
theorem flushed_eq (c : Dev nD) (t : Fin cfg0.N) (hf : (cfg0.win 2).flush t = true) :
    (dats m 0 c).flushed 2 t = ((cfg0.win 2).blk t).view.read (Elt F) (last m c) := by
  have hN : cfg0.N = 512 := N_0
  have h511 : t.val = 511 := by have := (flush0_2 t).mp hf; have := t.isLt; omega
  obtain rfl : t = tLast := Fin.ext h511
  show (cfg0.win 2).cut (grid0.coords tLast) ((dats m 0 c).after 2 tLast) = _
  rw [show (dats m 0 c).after 2 tLast = last m c from (after0_2 m c tLast).trans (out_last m c)]
  have hz' : (fun a => win0_2.index tLast a * main_v0.ty.shape.size a) = fun _ => 0 := funext fun a => by fin_cases a <;> decide
  exact (Memref.read_access_unit_zero (Elt F) main_v0 hz' (fun a => by rw [congrFun hz' a]; simp) (last m c)).symm

/-- So the result array ends holding the running value after the last point: that point's block covers it. -/
theorem final_o (c : Dev nD) : (dats m 0 c).arrAt 2 cfg0.N = last m c :=
  (dats m 0 c).arrAt_eq_of_cover 2 (last m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the running value after the last point, reshaped to a scalar and divided by the constant. -/
abbrev result (c : Dev nD) : Buf (Elt F) ((c : Thread nD τ).loc main_v2) :=
  Host.divf (shapeCast S_ (last m c) shapeCasts_S1x1_S_) (constant S_ .f32 0x4B000000#32)

/-- The three host operations after the region compute it from the result array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = last m c from
    (Pipeline.withArrays_arr spec0 launch0.win.arr_inj c _ _ 2).trans (final_o m c)]
  rfl

/-- The run, read: the result at that value, the two arguments unchanged. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Spec.lean ====
/-
  The quantity both programs compute, over the extended reals, and the one law that joins their two arrangements.

  For two arrays p, t of 8388608 rows and 4 columns, row R contributes
      rowTerm R = ∑ over the three columns k = 1, 2, 3 of |p[R,k] · t[R,k]|,      |x| = max x (-x),
  and the result is (∑ over all rows R of c · rowTerm R) / d for two constants c and d that are the same words on both
  sides and are never evaluated. One side doubles every row's term and then adds the rows up; the other cuts the rows
  into 512 consecutive blocks of 16384, adds up each block, doubles the block's sum and accumulates the blocks in order
  from zero. The two agree because every rowTerm is nonnegative: on the extended reals c · (a + b) = c · a + c · b
  whenever a, b ≥ 0, whatever c is (no finiteness is needed), and addition is associative and commutative.
-/
import Idealize.ShloMosaic.PureOps.Ideal.Laws
import Idealize.ShloMosaic.Lib.ValueIdx

noncomputable section

namespace Cert.ImagL1

open Idealize.ShloMosaic Idealize.ShloMosaic.ValueIdx

/-- An array of 8388608 rows and 4 columns of extended reals. -/
abbrev Arr : Type := (⟨2, ![8388608, 4]⟩ : Shape).Idx → EReal

/-- The k-th of the three summed columns is column 1 + k. -/
def col (k : Fin 3) : Fin 4 := ⟨1 + k.val, by omega⟩

/-- |x| on the extended reals. -/
def eabs (x : EReal) : EReal := max x (-x)

theorem eabs_nonneg (x : EReal) : 0 ≤ eabs x := by
  unfold eabs
  rcases le_total 0 x with h | h
  · exact le_max_of_le_left h
  · exact le_max_of_le_right (by rw [← neg_zero]; exact EReal.neg_le_neg_iff.mpr h)

theorem eabs_neg (x : EReal) : eabs (-x) = eabs x := by
  unfold eabs; rw [neg_neg, max_comm]

/-- Row R's term: the sum over the three columns of |p · t|. -/
def rowTerm (p t : Arr) (R : Fin 8388608) : EReal :=
  ∑ k : Fin 3, eabs (p (ix2 R (col k)) * t (ix2 R (col k)))

theorem rowTerm_nonneg (p t : Arr) (R : Fin 8388608) : 0 ≤ rowTerm p t R :=
  Finset.sum_nonneg fun _ _ => eabs_nonneg _

/-- The sum over all rows of c times the row's term. -/
def total (c : EReal) (p t : Arr) : EReal := ∑ R : Fin 8388608, c * rowTerm p t R

/-- Row r of block b is row 16384 · b + r of the array. -/
def blockRow (b : Fin 512) (r : Fin 16384) : Fin 8388608 := ⟨b.val * 16384 + r.val, by omega⟩

/-- The sum of the row terms of block n (zero past the last block). -/
def blockSum (p t : Arr) (n : ℕ) : EReal :=
  if h : n < 512 then ∑ r : Fin 16384, rowTerm p t (blockRow ⟨n, h⟩ r) else 0

theorem blockSum_nonneg (p t : Arr) (n : ℕ) : 0 ≤ blockSum p t n := by
  unfold blockSum
  split
  · exact Finset.sum_nonneg fun _ _ => rowTerm_nonneg _ _ _
  · exact le_refl _

/-- The accumulator after block n: from zero, each block's sum times c added in order. -/
def acc (c : EReal) (p t : Arr) : ℕ → EReal
  | 0 => 0 + c * blockSum p t 0
  | n + 1 => acc c p t n + c * blockSum p t (n + 1)

theorem acc_eq_sum (c : EReal) (p t : Arr) (n : ℕ) :
    acc c p t n = ∑ i ∈ Finset.range (n + 1), c * blockSum p t i := by
  induction n with
  | zero => simp [acc]
  | succ n ih => rw [acc, ih, Finset.sum_range_succ (fun i => c * blockSum p t i) (n + 1)]

/-- A factor goes inside a finite sum of nonnegative extended reals. -/
theorem mul_sum_of_nonneg {ι : Type*} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- Rows are numbered block by block: (b, r) ↦ 16384 · b + r is a bijection onto the rows. -/
def rowEquiv : Fin 512 × Fin 16384 ≃ Fin 8388608 :=
  finProdFinEquiv.trans (finCongr (by norm_num))

theorem rowEquiv_apply (b : Fin 512) (r : Fin 16384) : rowEquiv (b, r) = blockRow b r := by
  apply Fin.ext
  simp [rowEquiv, blockRow, finProdFinEquiv]
  omega

/-- The blocks' doubled sums add up to the total. -/
theorem sum_blocks (c : EReal) (p t : Arr) :
    ∑ i ∈ Finset.range 512, c * blockSum p t i = total c p t := by
  rw [← Fin.sum_univ_eq_sum_range (fun i => c * blockSum p t i) 512]
  unfold total
  rw [← Equiv.sum_comp rowEquiv (fun R => c * rowTerm p t R), Fintype.sum_prod_type]
  refine Finset.sum_congr rfl fun b _ => ?_
  unfold blockSum
  rw [dif_pos b.isLt, mul_sum_of_nonneg _ _ _ fun r _ => rowTerm_nonneg _ _ _]
  refine Finset.sum_congr rfl fun r _ => ?_
  rw [rowEquiv_apply]

/-- The accumulator after the last block is the total. -/
theorem acc_last (c : EReal) (p t : Arr) : acc c p t 511 = total c p t := by
  rw [acc_eq_sum]; exact sum_blocks c p t

/-- The result: the total with c the word of 2.0, divided by the word of 2²³ (both read at the exact values;
    neither is evaluated). -/
def result (p t : Arr) : (⟨0, ![]⟩ : Shape).Idx → EReal :=
  Host.divf (F := Ideal) (fun _ => total (Ideal.ofBits .f32 0x40000000#32) p t)
    (constant (F := Ideal) ⟨0, ![]⟩ .f32 0x4B000000#32)

end Cert.ImagL1

end
-- ==== Proof.KernelSpec.lean ====
/-
  The kernel's result at the exact values is the specification's.

  Read at an index, one point's payload is  s + c · ∑ over the block's 16384 rows r of ∑ over the three columns k of
  |x0[r, 1+k] · x1[r, 1+k]|:  the lane reduction sums the three sliced columns of a row, the cast to a column and the
  sublane reduction sum the rows, and the two casts between the 1-element shapes move nothing. The block a window stages
  at point n is rows 16384 · n … 16384 · n + 16383 of its array, all four columns. So the running value after point n is
  the specification's accumulator after block n, by induction on the point, and after the last point it is the total.
-/
import proofs.«148484_j74294344286531_2_alg».proof.Proof.KernelAcc
import proofs.«148484_j74294344286531_2_alg».proof.Proof.Spec
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.KSpec

open Cert.KernelIdeal Cert.KernelIdeal.Gen Cert.KernelIdeal.KValue Cert.ImagL1

/-! ## The payload's operations read at an index -/

/-- The lane reduction at row r is the sum of the row's three entries. -/
theorem laneSum_apply (v : FVec Ideal S16384x3 .f32) (h : S16384x3.Reduces [1] S16384) (hφ : FKind.Formats .f32)
    (hacc : (0x00000000#32 : BitVec 32) = FKind.add.neutral .f32 hφ) (r : Fin 16384) :
    multiReduction .add [1] S16384 v 0x00000000#32 h hφ hacc (ix1 r) = ∑ k : Fin 3, v (ix2 r k) :=
  (Ideal.multiReduction_add_single v _ h hφ hacc (ix1 r)).trans
    (Finset.sum_congr rfl fun k _ => congrArg v (funext fun a => by
      match a with
      | ⟨0, _⟩ => exact Fin.ext rfl
      | ⟨1, _⟩ => exact Fin.ext rfl))

/-- A vector of 16384 entries cast to a column reads, at (r, u), its entry r. -/
theorem colCast_apply (v : FVec Ideal S16384 .f32) (h : S16384.ShapeCasts S16384x1) (r : Fin 16384) (u : Fin 1) :
    shapeCast S16384x1 v h (ix2 r u) = v (ix1 r) :=
  shapeCast_apply v h _ _ (by
    have hu : u.val = 0 := by omega
    rw [Shape.rowMajor_val_two, Shape.rowMajor_val_one]
    show r.val = r.val * 1 + u.val
    omega)

/-- The sublane reduction of a column is the sum of its 16384 entries. -/
theorem rowsSum_apply (v : FVec Ideal S16384x1 .f32) (h : S16384x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 16384, v (ix2 r u) :=
  (Ideal.multiReduction_add_single v _ h hφ hacc (ix1 u)).trans
    (Finset.sum_congr rfl fun r _ => congrArg v (funext fun a => by
      match a with
      | ⟨0, _⟩ => exact Fin.ext rfl
      | ⟨1, _⟩ => exact Fin.ext rfl))

/-- The slice of columns 1, 2, 3 reads, at (r, k), column 1 + k of row r. -/
theorem slice_apply (x : FVec Ideal S16384x4 .f32) (h : S16384x4.Slices ![0, 1] S16384x3) (r : Fin 16384) (k : Fin 3) :
    extractStridedSlice S16384x3 ![0, 1] x h (ix2 r k) = x (ix2 r (col k)) :=
  slice2_axis1_apply 1 x h r k (col k) rfl

/-- One point's payload at its one index: what the scratch held plus c times the block's sum. -/
theorem pay_apply (x0 x1 : FVec Ideal S16384x4 .f32) (s : FVec Ideal S1x1 .f32) (u w : Fin 1) :
    k0_pay2 x0 x1 s (ix2 u w)
      = s (ix2 u w) + Ideal.ofBits .f32 0x40000000#32
          * ∑ r : Fin 16384, ∑ k : Fin 3, eabs (x0 (ix2 r (col k)) * x1 (ix2 r (col k))) := by
  unfold k0_pay2
  refine (congrFun (shapeCast_self _ _) (ix2 u w)).trans ?_
  show s (ix2 u w) + Ideal.ofBits .f32 0x40000000#32 * shapeCast S1x1 _ shapeCasts_S1_S1x1 (ix2 u w) = _
  refine congrArg (fun z => s (ix2 u w) + Ideal.ofBits .f32 0x40000000#32 * z) ?_
  refine (shapeCast_a_1a_apply _ _ u w).trans ?_
  refine (rowsSum_apply _ _ _ _ w).trans ?_
  refine Finset.sum_congr rfl fun r _ => ?_
  refine (colCast_apply _ _ r w).trans ?_
  refine (laneSum_apply _ _ _ _ r).trans ?_
  refine Finset.sum_congr rfl fun k _ => ?_
  show eabs (extractStridedSlice S16384x3 ![0, 1] x0 _ (ix2 r k) * extractStridedSlice S16384x3 ![0, 1] x1 _ (ix2 r k)) = _
  rw [slice_apply, slice_apply]

/-- The zero block the first point resets the scratch to is 0. -/
theorem zero_apply (u w : Fin 1) : k0_pay1 (F := Ideal) (ix2 u w) = 0 := by
  unfold k0_pay1
  refine (congrFun (shapeCast_self _ _) (ix2 u w)).trans ?_
  exact Ideal.ofBits_zero_f32

/-! ## The blocks the windows stage -/

variable (m : (ℓ : Loc nD τ sig) → Buf (Elt Ideal) ℓ)

/-- Both input windows' block at point t is block (t, 0): rows from 16384 · t, all four columns. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, k) of the first window's block at point t is entry (16384 · t + r, k) of the first argument. -/
theorem iblk0_apply (c : Dev nD) (t : Fin cfg0.N) (r : Fin 16384) (k : Fin 4) (R : Fin 8388608)
    (hR : R.val = t.val * 16384 + r.val) :
    (iblk m c 0 t : Vec Ideal S16384x4 .f32) (ix2 r k) = m ((c : Thread nD τ).loc main_arg0) (ix2 R k) := by
  unfold iblk
  rw [View.read_apply]
  show V m c main_arg0 _ = m (c.tc.loc main_arg0) _
  unfold V
  congr 1
  funext a
  apply Fin.ext
  match a with
  | ⟨0, _⟩ => show win0_0.index t 0 * 16384 + 1 * r.val = R.val; rw [(idx_facts0 t).1, hR]; omega
  | ⟨1, _⟩ => show win0_0.index t 1 * 4 + 1 * k.val = k.val; rw [(idx_facts0 t).2]; omega

/-- The same for the second window and the second argument. -/
theorem iblk1_apply (c : Dev nD) (t : Fin cfg0.N) (r : Fin 16384) (k : Fin 4) (R : Fin 8388608)
    (hR : R.val = t.val * 16384 + r.val) :
    (iblk m c 1 t : Vec Ideal S16384x4 .f32) (ix2 r k) = m ((c : Thread nD τ).loc main_arg1) (ix2 R k) := by
  unfold iblk
  rw [View.read_apply]
  show V m c main_arg1 _ = m (c.tc.loc main_arg1) _
  unfold V
  congr 1
  funext a
  apply Fin.ext
  match a with
  | ⟨0, _⟩ => show win0_1.index t 0 * 16384 + 1 * r.val = R.val; rw [(idx_facts1 t).1, hR]; omega
  | ⟨1, _⟩ => show win0_1.index t 1 * 4 + 1 * k.val = k.val; rw [(idx_facts1 t).2]; omega

/-- The sum a point's payload takes over its two blocks is the specification's sum of block n. -/
theorem block_eq (c : Dev nD) (n : ℕ) (h : n < cfg0.N) (x0 x1 : FVec Ideal S16384x4 .f32)
    (h0 : x0 = iblk m c 0 ⟨n, h⟩) (h1 : x1 = iblk m c 1 ⟨n, h⟩) :
    ∑ r : Fin 16384, ∑ k : Fin 3, eabs (x0 (ix2 r (col k)) * x1 (ix2 r (col k)))
      = blockSum (m ((c : Thread nD τ).loc main_arg0)) (m ((c : Thread nD τ).loc main_arg1)) n := by
  have hn : n < 512 := lt_of_lt_of_eq h (show cfg0.N = 512 from N_0)
  subst h0 h1
  unfold blockSum
  rw [dif_pos hn]
  refine Finset.sum_congr rfl fun r _ => ?_
  unfold rowTerm
  refine Finset.sum_congr rfl fun k _ => ?_
  rw [iblk0_apply m c ⟨n, h⟩ r (col k) (blockRow ⟨n, hn⟩ r) rfl, iblk1_apply m c ⟨n, h⟩ r (col k) (blockRow ⟨n, hn⟩ r) rfl]

/-! ## The running value is the accumulator -/

/-- After point n the running value is the specification's accumulator after block n. -/
theorem chain_apply (c : Dev nD) : ∀ (n : ℕ) (h : n < cfg0.N) (u w : Fin 1),
    chain m c n h (ix2 u w)
      = acc (Ideal.ofBits .f32 0x40000000#32) (m ((c : Thread nD τ).loc main_arg0)) (m ((c : Thread nD τ).loc main_arg1)) n
  | 0, h, u, w => by
    show k0_pay2 (F := Ideal) _ _ _ (ix2 u w) = 0 + _ * blockSum _ _ 0
    rw [pay_apply, zero_apply, block_eq m c 0 h _ _ rfl rfl]
  | n + 1, h, u, w => by
    show k0_pay2 (F := Ideal) _ _ _ (ix2 u w) = acc _ _ _ n + _ * blockSum _ _ (n + 1)
    rw [pay_apply, chain_apply c n _ u w, block_eq m c (n + 1) h _ _ rfl rfl]

/-- The kernel's result is the specification's: the value after the last point is the total, and both sides divide it by
    the same constant. -/
theorem result_eq (c : Dev nD) :
    KValue.result m c = Cert.ImagL1.result (m ((c : Thread nD τ).loc main_arg0)) (m ((c : Thread nD τ).loc main_arg1)) := by
  unfold Cert.ImagL1.result
  refine congrArg (fun x => Host.divf (F := Ideal) x (constant (F := Ideal) S_ .f32 0x4B000000#32)) ?_
  funext j
  refine (shapeCast_apply _ _ j (ix2 (0 : Fin 1) (0 : Fin 1)) ?_).trans ?_
  · have h1 : (S_.rowMajor j).val < 1 := (S_.rowMajor j).isLt
    rw [Shape.rowMajor_val_two]
    show (0 : ℕ) * 1 + 0 = _
    omega
  · exact (chain_apply m c 511 tLast.isLt 0 0).trans (acc_last _ _ _)

end Cert.KernelIdeal.KSpec

end
-- ==== Proof.RefValue.lean ====
/-
  The reference program's run, and the value it leaves.

  For two arrays p, t of 8388608 rows and 4 columns the reference multiplies t by the row (1, -1, -1, -1) repeated on
  every row, multiplies the result by p, keeps the columns 1, 2, 3, takes absolute values, adds up the three columns
  of each row from zero, multiplies each row's sum by the constant of the word of 2.0, adds up all rows from zero, and
  divides by the constant of the word of 2^23.

  Part 1 reads the run back: @main is a straight line of sixteen host operations, so every weakly fair execution
  terminates with the result buffer at the operations' composed term of the two arguments' contents at launch, and
  with the arguments unchanged.

  Part 2 evaluates the composed term over the extended reals. At a kept column 1 + k the repeated row holds the
  word of -1, so the product there is p * (t * (-1)) = -(p * t), and the absolute value |x| = max x (-x) forgets the
  sign: row R's three-column sum is 0 + the sum over k of |p[R, 1+k] * t[R, 1+k]|, the row's term. The sum over all
  rows into the rank-0 shape is 0 + the sum over every rank-1 index of c times the row's term; a rank-1 index is its one
  coordinate, so this is the sum over the rows, the total. Both sides end in the same division by the same constant,
  which is never opened.
-/
import proofs.«148484_j74294344286531_2_alg».proof.Proof.Gen.ReferenceIdeal
import proofs.«148484_j74294344286531_2_alg».proof.Proof.Spec
import Idealize.ShloMosaic.Lib.StableHlo.Run
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## Part 1: the run -/

section Run

variable {F : FTy → Type} [FloatOps F]

/-- @main's 16 operations, in order. -/
abbrev ops : List (HloOp τ sig (Elt F)) :=
  [ nullary main_cst (fun i => FloatOps.ofBits .f32 (lit0 (S4.rowMajor i))),
    unary main_cst main_v0 (broadcastInDim S1x4 ![1] bcast_S4_S1x4_1 : (⟨S4, .f32⟩ : BufTy).Contents (Elt F) → (⟨S1x4, .f32⟩ : BufTy).Contents (Elt F)),
    unary main_v0 main_v1 (broadcastInDim S8388608x4 ![0, 1] bcast_S1x4_S8388608x4_0_1 : (⟨S1x4, .f32⟩ : BufTy).Contents (Elt F) → (⟨S8388608x4, .f32⟩ : BufTy).Contents (Elt F)),
    binary main_arg1 main_v1 main_v2 (mulf : (⟨S8388608x4, .f32⟩ : BufTy).Contents (Elt F) → (⟨S8388608x4, .f32⟩ : BufTy).Contents (Elt F) → (⟨S8388608x4, .f32⟩ : BufTy).Contents (Elt F)),
    binary main_arg0 main_v2 main_v3 (mulf : (⟨S8388608x4, .f32⟩ : BufTy).Contents (Elt F) → (⟨S8388608x4, .f32⟩ : BufTy).Contents (Elt F) → (⟨S8388608x4, .f32⟩ : BufTy).Contents (Elt F)),
    unary main_v3 main_v4 ((extractStridedSlice S8388608x3 ![0, 1] · slices_S8388608x4_S8388608x3_0_1) : (⟨S8388608x4, .f32⟩ : BufTy).Contents (Elt F) → (⟨S8388608x3, .f32⟩ : BufTy).Contents (Elt F)),
    unary main_v4 main_v5 (Host.absf : (⟨S8388608x3, .f32⟩ : BufTy).Contents (Elt F) → (⟨S8388608x3, .f32⟩ : BufTy).Contents (Elt F)),
    nullary main_cst_0 (constant S_ .f32 0x00000000#32),
    binary main_v5 main_cst_0 main_v6 ((fun x v => Host.reduceAdd x v reducesTo_S8388608x3_S8388608_d1 h_S_) : (⟨S8388608x3, .f32⟩ : BufTy).Contents (Elt F) → (⟨S_, .f32⟩ : BufTy).Contents (Elt F) → (⟨S8388608, .f32⟩ : BufTy).Contents (Elt F)),
    nullary main_cst_1 (constant S_ .f32 0x40000000#32),
    unary main_cst_1 main_v7 (broadcastInDim S8388608 ![] bcast_S_S8388608 : (⟨S_, .f32⟩ : BufTy).Contents (Elt F) → (⟨S8388608, .f32⟩ : BufTy).Contents (Elt F)),
    binary main_v7 main_v6 main_v8 (mulf : (⟨S8388608, .f32⟩ : BufTy).Contents (Elt F) → (⟨S8388608, .f32⟩ : BufTy).Contents (Elt F) → (⟨S8388608, .f32⟩ : BufTy).Contents (Elt F)),
    nullary main_cst_2 (constant S_ .f32 0x00000000#32),
    binary main_v8 main_cst_2 main_v9 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_3 (constant S_ .f32 0x4B000000#32),
    binary main_v9 main_cst_3 main_v10 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., binary_bufs_sub .., unary_bufs_sub ..,
    unary_bufs_sub .., nullary_bufs_sub .., binary_bufs_sub .., nullary_bufs_sub .., unary_bufs_sub .., binary_bufs_sub ..,
    nullary_bufs_sub .., binary_bufs_sub .., nullary_bufs_sub .., binary_bufs_sub ..⟩

/-- The repeated row (1, -1, -1, -1): the literal table on every row. -/
def signRow : (⟨S8388608x4, .f32⟩ : BufTy).Contents (Elt F) :=
  broadcastInDim S8388608x4 ![0, 1] bcast_S1x4_S8388608x4_0_1
    (broadcastInDim S1x4 ![1] bcast_S4_S1x4_1 (fun i => FloatOps.ofBits .f32 (lit0 (S4.rowMajor i))))

/-- The kept block: columns 1, 2, 3 of p * (t * the repeated row). -/
def keptCols (p t : (⟨S8388608x4, .f32⟩ : BufTy).Contents (Elt F)) : (⟨S8388608x3, .f32⟩ : BufTy).Contents (Elt F) :=
  extractStridedSlice S8388608x3 ![0, 1] (mulf p (mulf t signRow)) slices_S8388608x4_S8388608x3_0_1

/-- Each row's sum, from zero, of the kept block's absolute values. -/
def rowSums (p t : (⟨S8388608x4, .f32⟩ : BufTy).Contents (Elt F)) : (⟨S8388608, .f32⟩ : BufTy).Contents (Elt F) :=
  Host.reduceAdd (Host.absf (keptCols p t)) (constant S_ .f32 0x00000000#32) reducesTo_S8388608x3_S8388608_d1 h_S_

/-- What is summed over all rows: each row's sum times the constant of 2.0's word. -/
def summand (p t : (⟨S8388608x4, .f32⟩ : BufTy).Contents (Elt F)) : (⟨S8388608, .f32⟩ : BufTy).Contents (Elt F) :=
  mulf (broadcastInDim S8388608 ![] bcast_S_S8388608 (constant S_ .f32 0x40000000#32)) (rowSums p t)

/-- The numerator: the sum over all rows, from zero. -/
def numer (p t : (⟨S8388608x4, .f32⟩ : BufTy).Contents (Elt F)) : (⟨S_, .f32⟩ : BufTy).Contents (Elt F) :=
  Host.reduceAdd (summand p t) (constant S_ .f32 0x00000000#32) reducesTo_S8388608_S_d0 h_S_

/-- The operations' composed term of the two arguments. -/
def composed (p t : (⟨S8388608x4, .f32⟩ : BufTy).Contents (Elt F)) : (⟨S_, .f32⟩ : BufTy).Contents (Elt F) :=
  Host.divf (numer p t) (constant S_ .f32 0x4B000000#32)

/-- On every device, for any float values, from any memory with zero counters: every weakly fair execution of
    @main terminates with the result at the operations' composed term of the arguments and the arguments
    unchanged. -/
theorem run_composed (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = composed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (by after_results; rfl),
      (h c main_arg0).trans (by after_results),
      (h c main_arg1).trans (by after_results)⟩)
    (run_seq scopedRefs_eq scopedSems_eq defs main (fun _ => ops) main_eq (fun _ => ops_sub) m ρ)

end Run

/-! ## Part 2: the value over the extended reals -/

section Value

open Cert.ImagL1

/-- The host's absolute value at an index is |·| of the element there (at any shape). -/
theorem hostAbsf_apply {s : Shape} (x : FVec Ideal s .f32) (i : s.Idx) : Host.absf (F := Ideal) x i = eabs (x i) := rfl

/-- The table's word at each of the columns 1, 2, 3 is the word of -1. -/
theorem lit0_col (k : Fin 3) : lit0 (col k) = 0xBF800000#32 := by
  fin_cases k <;> rfl

/-- The repeated row reads -1 at every row and each of the columns 1, 2, 3: the second broadcast reads row 0 of the
    first, the first reads the table at the column, and the table's word there is the word of -1. -/
theorem signRow_col (R : Fin 8388608) (k : Fin 3) : signRow (F := Ideal) (ix2 R (col k)) = -1 := by
  unfold signRow
  refine (broadcastInDim_apply _ _ _ (ix2 R (col k)) (ix2 (0 : Fin 1) (col k))
    (fun a => by match a with | ⟨0, _⟩ => rfl | ⟨1, _⟩ => rfl)).trans ?_
  refine (broadcastInDim_apply _ _ _ (ix2 (0 : Fin 1) (col k)) (ix1 (col k))
    (fun a => by match a with | ⟨0, _⟩ => rfl)).trans ?_
  have e : S4.rowMajor (ix1 (col k)) = col k := Fin.ext (Shape.rowMajor_val_one _)
  refine (congrArg (fun c => Ideal.ofBits .f32 (lit0 c)) e).trans ?_
  refine (congrArg (Ideal.ofBits .f32) (lit0_col k)).trans ?_
  exact IdealRules.sign_bit.ideal_negOnePat .f32

/-- At a kept column the product p * (t * (-1)) is minus the product of the two arrays' entries. -/
theorem prod_col (p t : FVec Ideal S8388608x4 .f32) (R : Fin 8388608) (k : Fin 3) :
    mulf p (mulf t (signRow (F := Ideal))) (ix2 R (col k)) = -(p (ix2 R (col k)) * t (ix2 R (col k))) := by
  rw [mulf_apply, mulf_apply, signRow_col, mul_neg, mul_one, mul_neg]

/-- The kept block at (R, k) reads column 1 + k: minus the product of the two arrays' entries there. -/
theorem keptCols_apply (p t : FVec Ideal S8388608x4 .f32) (R : Fin 8388608) (k : Fin 3) :
    keptCols (F := Ideal) p t (ix2 R k) = -(p (ix2 R (col k)) * t (ix2 R (col k))) := by
  unfold keptCols
  exact (slice2_axis1_eq 1 _ slices_S8388608x4_S8388608x3_0_1 R k).trans (prod_col p t R k)

/-- The index over row R with coordinate k inserted on the column axis is (R, k). -/
theorem lift_row (h : S8388608x3.Reduces [1] S8388608) (R : Fin 8388608) (k : Fin 3) :
    h.lift (ix1 R) k = ix2 R k := by
  funext a
  match a with
  | ⟨0, _⟩ => rfl
  | ⟨1, _⟩ => rfl

/-- Row R's three-column sum of absolute values, from zero, is the row's term: the sign inside |·| is forgotten. -/
theorem rowSums_apply (p t : FVec Ideal S8388608x4 .f32) (R : Fin 8388608) :
    rowSums (F := Ideal) p t (ix1 R) = rowTerm p t R := by
  have hR : S8388608x3.Reduces [1] S8388608 := by decide
  unfold rowSums rowTerm
  refine (hostReduceAdd_apply _ _ _ _ _).trans ?_
  refine (Ideal.hostReduceAdd_single _ hR _ _ _).trans ?_
  rw [constant_apply, Ideal.ofBits_zero_f32, zero_add]
  refine Finset.sum_congr rfl fun k _ => ?_
  rw [lift_row hR R k, hostAbsf_apply]
  exact (congrArg eabs (keptCols_apply p t R k)).trans (eabs_neg _)

/-- Row R's summand is the constant times the row's term. -/
theorem summand_apply (p t : FVec Ideal S8388608x4 .f32) (R : Fin 8388608) :
    summand (F := Ideal) p t (ix1 R) = Ideal.ofBits .f32 0x40000000#32 * rowTerm p t R := by
  unfold summand
  rw [mulf_apply, broadcastInDim_scalar_apply, constant_apply, rowSums_apply]

/-- A rank-1 index is its one coordinate. -/
def idxEquiv1 (n : Nat) : (⟨1, ![n]⟩ : Shape).Idx ≃ Fin n where
  toFun i := i 0
  invFun := ix1
  left_inv i := (eq_ix1 i).symm
  right_inv _ := rfl

/-- A sum over a rank-1 index set is the sum over its coordinate. -/
theorem sum_idx1 {n : Nat} (f : (⟨1, ![n]⟩ : Shape).Idx → EReal) : ∑ i, f i = ∑ R : Fin n, f (ix1 R) :=
  ((idxEquiv1 n).symm.sum_comp f).symm

/-- The sum over all rows, from zero, is the total. -/
theorem numer_eq (p t : FVec Ideal S8388608x4 .f32) :
    numer (F := Ideal) p t = fun _ => total (Ideal.ofBits .f32 0x40000000#32) p t := by
  funext j
  unfold numer total
  refine (hostReduceAdd_apply _ _ _ _ _).trans ?_
  refine (Ideal.hostReduceAdd_total _ (fun b => b.elim0) _ _ _).trans ?_
  rw [constant_apply, Ideal.ofBits_zero_f32, zero_add]
  refine (sum_idx1 _).trans ?_
  exact Finset.sum_congr rfl fun R _ => summand_apply p t R

/-- The composed term is the result: equal numerators under the same division. -/
theorem composed_eq (p t : FVec Ideal S8388608x4 .f32) : composed (F := Ideal) p t = result p t := by
  unfold composed result
  rw [numer_eq]

end Value

/-- On every device, over the extended reals, from any memory with zero counters: every weakly fair execution of
    @main terminates with the result buffer at the specified value of the two arguments' contents at launch, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = Cert.ImagL1.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (composed_eq _ _), (h c).2⟩) (run_composed m ρ)

end Cert.ReferenceIdeal.RefValue

end
-- ==== Proof.lean ====
/-
  Both programs compute, from two arrays p and t of 8388608 rows and 4 columns,

      ( ∑ over the rows R of  2 · ∑ over the columns k = 1, 2, 3 of |p[R,k] · t[R,k]| )  /  2²³

  on the extended reals. The reference multiplies t by the sign pattern (1, -1, -1, -1) first, which only negates the three
  summed products, and an absolute value does not see a sign; it then doubles each row's sum and adds the rows up. The
  kernel walks the rows in 512 consecutive blocks of 16384: each grid point adds twice its block's sum to a 1×1 scratch
  that starts at zero, and the last point copies the scratch to the result, which the program divides by 2²³. Doubling
  distributes over a sum of nonnegative extended reals whatever the factor denotes, and sums regroup freely, so the two
  agree at every input: the precondition (finite inputs) is never used for the value.

  The three frames: the word-level kernel's and the idealized kernel's are the generated frame certificates; the
  reference's is its run with the result dropped. The idealization rewrote nothing, so there is nothing to preserve.
-/
import proofs.«148484_j74294344286531_2_alg».proof.Defs
import proofs.«148484_j74294344286531_2_alg».proof.Proof.Gen.Kernel
import proofs.«148484_j74294344286531_2_alg».proof.Proof.Gen.Kernel.Skeleton
import proofs.«148484_j74294344286531_2_alg».proof.Proof.Gen.Kernel.Launch
import proofs.«148484_j74294344286531_2_alg».proof.Proof.Gen.Kernel.Points
import proofs.«148484_j74294344286531_2_alg».proof.Proof.Gen.Kernel.Frame
import proofs.«148484_j74294344286531_2_alg».proof.Proof.Gen.KernelIdeal
import proofs.«148484_j74294344286531_2_alg».proof.Proof.Gen.KernelIdeal.Skeleton
import proofs.«148484_j74294344286531_2_alg».proof.Proof.Gen.KernelIdeal.Launch
import proofs.«148484_j74294344286531_2_alg».proof.Proof.Gen.KernelIdeal.Points
import proofs.«148484_j74294344286531_2_alg».proof.Proof.Gen.KernelIdeal.Frame
import proofs.«148484_j74294344286531_2_alg».proof.Proof.Gen.ReferenceIdeal
import proofs.«148484_j74294344286531_2_alg».proof.Proof.Gen.Pre_finite_inputs
import proofs.«148484_j74294344286531_2_alg».proof.Proof.KernelSpec
import proofs.«148484_j74294344286531_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its two arguments as they were. -/
theorem frame_ri : Cert.frame_ReferenceIdeal := fun m ρ _ =>
  (θ_run Cert.ReferenceIdeal.defs _ _).mono (fun _ h c => (h c).2) (Cert.ReferenceIdeal.RefValue.run m ρ)

/-- At the exact values the kernel's result and the reference's, from arguments that agree, are the same extended real:
    each is the specification's result of the two argument arrays. -/
theorem algebraic : Cert.algebraic_KernelIdeal_ReferenceIdeal := by
  intro m ρ m' ρ' _ hagree
  refine ⟨fun c => Cert.KernelIdeal.KValue.result m c, Cert.KernelIdeal.KValue.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (Cert.KernelIdeal.KSpec.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
